-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x512x512 : Shape := ⟨4, ![32, 8, 512, 512]⟩
abbrev S32x1x512x512 : Shape := ⟨4, ![32, 1, 512, 512]⟩
abbrev S_ : Shape := ⟨0, ![]⟩

class Facts : Prop where
  bcast_S_S32x8x512x512 : S_.BroadcastsInDim S32x8x512x512 (![] : Fin 0 → Fin S32x8x512x512.rank)
  reducesTo_S32x8x512x512_S_d0_1_2_3 : S32x8x512x512.ReducesTo [0, 1, 2, 3] S_
  h_S_ : 0 < S_.numel

variable [Facts]

def fn {F : FTy → Type} [FloatOps F] (main_arg0 : FVec F S32x8x512x512 .f32) (main_arg1 : FVec F S32x8x512x512 .f32) (main_arg2 : IVec S32x1x512x512 1) : IVec S_ 1 :=
  let main_v0 : FVec F S32x8x512x512 .f32 := Host.absf main_arg0
  let main_cst : FVec F S_ .f32 := constant S_ .f32 0x7F800000#32
  let main_v1 : FVec F S32x8x512x512 .f32 := broadcastInDim S32x8x512x512 ![] bcast_S_S32x8x512x512 main_cst
  let main_v2 : IVec S32x8x512x512 1 := cmpf .olt main_v0 main_v1
  let main_c : IVec S_ 1 := constantI S_ 1 1#1
  let main_v3 : IVec S_ 1 := (fun x v => Host.reduce IntOp.andi x v reducesTo_S32x8x512x512_S_d0_1_2_3 h_S_) main_v2 main_c
  let main_v4 : FVec F S32x8x512x512 .f32 := Host.absf main_arg1
  let main_cst_0 : FVec F S_ .f32 := constant S_ .f32 0x7F800000#32
  let main_v5 : FVec F S32x8x512x512 .f32 := broadcastInDim S32x8x512x512 ![] bcast_S_S32x8x512x512 main_cst_0
  let main_v6 : IVec S32x8x512x512 1 := cmpf .olt main_v4 main_v5
  let main_c_1 : IVec S_ 1 := constantI S_ 1 1#1
  let main_v7 : IVec S_ 1 := (fun x v => Host.reduce IntOp.andi x v reducesTo_S32x8x512x512_S_d0_1_2_3 h_S_) main_v6 main_c_1
  let main_v8 : IVec S_ 1 := andi main_v3 main_v7
  main_v8
-- ==== Kernel.lean ====
abbrev S32x8x512x512 : Shape := ⟨4, ![32, 8, 512, 512]⟩
abbrev S32x1x512x512 : Shape := ⟨4, ![32, 1, 512, 512]⟩
abbrev S1x1 : Shape := ⟨2, ![1, 1]⟩
abbrev S1x8x128x512 : Shape := ⟨4, ![1, 8, 128, 512]⟩
abbrev S1x1x128x512 : Shape := ⟨4, ![1, 1, 128, 512]⟩
abbrev S1x128x512 : Shape := ⟨3, ![1, 128, 512]⟩
abbrev S1x1x8x128x512 : Shape := ⟨5, ![1, 1, 8, 128, 512]⟩
abbrev S1 : Shape := ⟨1, ![1]⟩
abbrev S1x1x1x1x1 : Shape := ⟨5, ![1, 1, 1, 1, 1]⟩
abbrev S1x1x1x128x512 : Shape := ⟨5, ![1, 1, 1, 128, 512]⟩
abbrev S_ : Shape := ⟨0, ![]⟩

abbrev nBuf : Space → Nat
  | .hbm => 11
  | .vmem => 8
  | .smem => 0
  | _ => 0

abbrev bufTy : (tb : Table) → Fin (tcTables nBuf tb) → BufTy
  | .hbm, ⟨0, _⟩ => ⟨S32x8x512x512, .f32⟩
  | .hbm, ⟨1, _⟩ => ⟨S32x8x512x512, .f32⟩
  | .hbm, ⟨2, _⟩ => ⟨S32x1x512x512, .i1⟩
  | .hbm, ⟨3, _⟩ => ⟨S32x1x512x512, .f32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x8x128x512, .f32⟩
  | .local _ .vmem, ⟨1, _⟩ => ⟨S1x8x128x512, .f32⟩
  | .local _ .vmem, ⟨2, _⟩ => ⟨S1x8x128x512, .f32⟩
  | .local _ .vmem, ⟨3, _⟩ => ⟨S1x8x128x512, .f32⟩
  | .local _ .vmem, ⟨4, _⟩ => ⟨S1x1x128x512, .f32⟩
  | .local _ .vmem, ⟨5, _⟩ => ⟨S1x1x128x512, .f32⟩
  | .local _ .vmem, ⟨6, _⟩ => ⟨S1x1, .f32⟩
  | .local _ .vmem, ⟨7, _⟩ => ⟨S1x1, .f32⟩
  | _, _ => ⟨S32x8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  inb_S1x1_S1x1_0_0 : ∀ a, (![0, 0] : Fin 2 → Nat) a + S1x1.size a ≤ S1x1.size a
  h_S1x1 : 0 < S1x1.numel
  inb_S1x8x128x512_S1x8x128x512_0_0_0_0 : ∀ a, (![0, 0, 0, 0] : Fin 4 → Nat) a + S1x8x128x512.size a ≤ S1x8x128x512.size a
  h_S1x8x128x512 : 0 < S1x8x128x512.numel
  inb_S1x1x128x512_S1x1x128x512_0_0_0_0 : ∀ a, (![0, 0, 0, 0] : Fin 4 → Nat) a + S1x1x128x512.size a ≤ S1x1x128x512.size a
  h_S1x1x128x512 : 0 < S1x1x128x512.numel
  shapeCasts_S1x1x128x512_S1x1x128x512 : S1x1x128x512.ShapeCasts S1x1x128x512
  reduces_S1x8x128x512_S1x128x512 : S1x8x128x512.Reduces [1] S1x128x512
  shapeCasts_S1x128x512_S1x1x128x512 : S1x128x512.ShapeCasts S1x1x128x512
  natLt_1_32 : 1 < 32
  broadcasts_S1x1x128x512_S1x8x128x512 : S1x1x128x512.Broadcasts S1x8x128x512
  shapeCasts_S1x8x128x512_S1x1x8x128x512 : S1x8x128x512.ShapeCasts S1x1x8x128x512
  reduces_S1x1x8x128x512_S1 : S1x1x8x128x512.Reduces [1, 2, 3, 4] S1
  shapeCasts_S1_S1x1x1x1x1 : S1.ShapeCasts S1x1x1x1x1
  inpos_S1x1x1x1x1_p0_0_0_0_0 : ∀ a, (![0, 0, 0, 0, 0] : Fin 5 → Nat) a < S1x1x1x1x1.size a
  shapeCasts_S1x1x128x512_S1x1x1x128x512 : S1x1x128x512.ShapeCasts S1x1x1x128x512
  reduces_S1x1x1x128x512_S1 : S1x1x1x128x512.Reduces [1, 2, 3, 4] S1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x128x512.size a ≤ S32x8x512x512.size a
  hwx0_0 : ∀ i : grid0.Coords, EltTy.bits .f32 = 32 ∨ (Rect.block (s := S32x8x512x512) S1x8x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128x512.size a ≤ S32x8x512x512.size a
  hwx0_1 : ∀ i : grid0.Coords, EltTy.bits .f32 = 32 ∨ (Rect.block (s := S32x8x512x512) S1x8x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128x512.size a ≤ S32x1x512x512.size a
  hwx0_2 : ∀ i : grid0.Coords, EltTy.bits .f32 = 32 ∨ (Rect.block (s := S32x1x512x512) S1x1x128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S1x8x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x8x512x512 : Shape := ⟨4, ![32, 8, 512, 512]⟩
abbrev S32x1x512x512 : Shape := ⟨4, ![32, 1, 512, 512]⟩
abbrev S_ : Shape := ⟨0, ![]⟩
abbrev S32x512x512 : Shape := ⟨3, ![32, 512, 512]⟩

abbrev nBuf : Space → Nat
  | .hbm => 30
  | .vmem => 0
  | .smem => 0
  | _ => 0

abbrev bufTy : (tb : Table) → Fin (tcTables nBuf tb) → BufTy
  | .hbm, ⟨0, _⟩ => ⟨S32x8x512x512, .f32⟩
  | .hbm, ⟨1, _⟩ => ⟨S32x8x512x512, .f32⟩
  | .hbm, ⟨2, _⟩ => ⟨S32x1x512x512, .i1⟩
  | .hbm, ⟨3, _⟩ => ⟨S_, .f32⟩
  | .hbm, ⟨4, _⟩ => ⟨S32x512x512, .f32⟩
  | .hbm, ⟨5, _⟩ => ⟨S32x1x512x512, .f32⟩
  | .hbm, ⟨6, _⟩ => ⟨S_, .f32⟩
  | .hbm, ⟨7, _⟩ => ⟨S32x1x512x512, .f32⟩
  | .hbm, ⟨8, _⟩ => ⟨S32x1x512x512, .i1⟩
  | .hbm, ⟨9, _⟩ => ⟨S32x1x512x512, .i1⟩
  | .hbm, ⟨10, _⟩ => ⟨S_, .f32⟩
  | .hbm, ⟨11, _⟩ => ⟨S32x8x512x512, .f32⟩
  | .hbm, ⟨12, _⟩ => ⟨S32x8x512x512, .f32⟩
  | .hbm, ⟨13, _⟩ => ⟨S32x8x512x512, .f32⟩
  | .hbm, ⟨14, _⟩ => ⟨S32x8x512x512, .f32⟩
  | .hbm, ⟨15, _⟩ => ⟨S32x8x512x512, .f32⟩
  | .hbm, ⟨16, _⟩ => ⟨S32x8x512x512, .f32⟩
  | .hbm, ⟨17, _⟩ => ⟨S32x8x512x512, .f32⟩
  | .hbm, ⟨18, _⟩ => ⟨S32x8x512x512, .f32⟩
  | .hbm, ⟨19, _⟩ => ⟨S32x8x512x512, .f32⟩
  | .hbm, ⟨20, _⟩ => ⟨S32x1x512x512, .f32⟩
  | .hbm, ⟨21, _⟩ => ⟨S32x8x512x512, .f32⟩
  | .hbm, ⟨22, _⟩ => ⟨S32x8x512x512, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S32x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  reducesTo_S32x8x512x512_S32x512x512_d1 : S32x8x512x512.ReducesTo [1] S32x512x512
  h_S_ : 0 < S_.numel
  bcast_S32x512x512_S32x1x512x512_0_2_3 : S32x512x512.BroadcastsInDim S32x1x512x512 (![0, 2, 3] : Fin 3 → Fin S32x1x512x512.rank)
  bcast_S_S32x1x512x512 : S_.BroadcastsInDim S32x1x512x512 (![] : Fin 0 → Fin S32x1x512x512.rank)
  bcast_S_S32x8x512x512 : S_.BroadcastsInDim S32x8x512x512 (![] : Fin 0 → Fin S32x8x512x512.rank)
  bcast_S32x1x512x512_S32x8x512x512_0_1_2_3 : S32x1x512x512.BroadcastsInDim S32x8x512x512 (![0, 1, 2, 3] : Fin 4 → Fin S32x8x512x512.rank)
  reducesTo_S32x8x512x512_S_d0_1_2_3 : S32x8x512x512.ReducesTo [0, 1, 2, 3] S_
  reducesTo_S32x1x512x512_S_d0_1_2_3 : S32x1x512x512.ReducesTo [0, 1, 2, 3] S_

variable [Facts₀]

class Facts : Prop extends Facts₀ where

variable [Facts]
-- ==== Proof.Spec.lean ====
/-
  The mathematics both programs compute, stated once and over no program.

  For scores `X` and targets `T` of shape [N, 8, H, 512] and per-pixel marks of shape [N, 1, H, 512]:
  a pixel (n, h, w) COUNTS when it is marked or when the largest of its eight targets exceeds 1/2; its weight is
  1 if it counts and 0 if not. Every entry (n, c, h, w) carries the logistic loss term
  `max(x, 0) − x·t + log(1 + exp(−|x|))`. The result is

      ( Σ over entries of  term · weight of the entry's pixel )  /  ( ( Σ over pixels of weight ) · 8 ).

  The same definitions are read at N = 32, H = 512 (the whole arrays) and at N = 1, H = 128 (one block of 128 rows of
  one sample), which is how a tile-by-tile evaluation meets the whole-array one.
-/
import Idealize.ShloMosaic.PureOps.Ideal
import Idealize.ShloMosaic.PureOps.Ideal.Laws
import Idealize.ShloMosaic.Lib.ValueIdx

noncomputable section

namespace Cert.Spec

open Idealize.ShloMosaic

/-- Scores and targets: [N, 8, H, 512]. -/
abbrev X4 (N H : ℕ) : Shape := ⟨4, ![N, 8, H, 512]⟩
/-- Per-pixel marks and weights: [N, 1, H, 512]. -/
abbrev M4 (N H : ℕ) : Shape := ⟨4, ![N, 1, H, 512]⟩

variable {N H : ℕ}

/-- The pixel (n, 0, h, w) under the entry (n, c, h, w). -/
abbrev pix (j : (X4 N H).Idx) : (M4 N H).Idx := fun a => match a with
  | ⟨0, _⟩ => ⟨(j 0).val, (j 0).isLt⟩
  | ⟨1, _⟩ => ⟨0, Nat.one_pos⟩
  | ⟨2, _⟩ => ⟨(j 2).val, (j 2).isLt⟩
  | ⟨3, _⟩ => ⟨(j 3).val, (j 3).isLt⟩

/-- Channel `c` over the pixel `q`: the entry (n, c, h, w). -/
abbrev chan (q : (M4 N H).Idx) (c : Fin 8) : (X4 N H).Idx := fun a => match a with
  | ⟨0, _⟩ => ⟨(q 0).val, (q 0).isLt⟩
  | ⟨1, _⟩ => c
  | ⟨2, _⟩ => ⟨(q 2).val, (q 2).isLt⟩
  | ⟨3, _⟩ => ⟨(q 3).val, (q 3).isLt⟩

/-- The threshold 1/2, as the word both programs spell. -/
abbrev half : EReal := Ideal.ofBits .f32 0x3F000000#32

/-- The largest of a pixel's eight targets (from −∞, the word both programs start the maximum from). -/
def cmax (T : (X4 N H).Idx → EReal) (q : (M4 N H).Idx) : EReal :=
  (Finset.univ : Finset (Fin 8)).fold max (Ideal.ofBits .f32 0xFF800000#32) (fun c => T (chan q c))

/-- A pixel's weight from its mark BIT: 1 when it is marked or its largest target exceeds 1/2, else 0. -/
def wgt (T : (X4 N H).Idx → EReal) (M : (M4 N H).Idx → BitVec 1) (q : (M4 N H).Idx) : EReal :=
  (((M q ||| Ideal.cmp .ogt (cmax T q) half).toNat : ℝ) : EReal)

/-- The same weight from the mark given as a NUMBER (0 or 1) and compared with 1/2, the one-bit answer widened to
    32 bits and read as a signed integer: the spelling of a program that first turns the marks into numbers. -/
def wgtK (T : (X4 N H).Idx → EReal) (Mf : (M4 N H).Idx → EReal) (q : (M4 N H).Idx) : EReal :=
  ((((Ideal.cmp .ogt (Mf q) half ||| Ideal.cmp .ogt (cmax T q) half).setWidth 32).toInt : ℝ) : EReal)

/-- The logistic loss term of a score `x` against a target `t`: `max(x, 0) − x·t + log(1 + exp(−|x|))`. -/
def term (x t : EReal) : EReal :=
  (max x (Ideal.ofBits .f32 0x00000000#32) - x * t) + Ideal.log1p (Ideal.exp (-(max x (-x))))

/-- The weighted sum of the loss terms over every entry (marks as bits). -/
def sumPW (X T : (X4 N H).Idx → EReal) (M : (M4 N H).Idx → BitVec 1) : EReal :=
  ∑ j : (X4 N H).Idx, term (X j) (T j) * wgt T M (pix j)

/-- The sum of the weights over every pixel (marks as bits). -/
def sumW (T : (X4 N H).Idx → EReal) (M : (M4 N H).Idx → BitVec 1) : EReal :=
  ∑ q : (M4 N H).Idx, wgt T M q

/-- The two sums with the marks given as numbers. -/
def sumPWK (X T : (X4 N H).Idx → EReal) (Mf : (M4 N H).Idx → EReal) : EReal :=
  ∑ j : (X4 N H).Idx, term (X j) (T j) * wgtK T Mf (pix j)

def sumWK (T : (X4 N H).Idx → EReal) (Mf : (M4 N H).Idx → EReal) : EReal :=
  ∑ q : (M4 N H).Idx, wgtK T Mf q

/-- The result: the weighted sum over the sum of the weights times 8 (the word both programs spell for 8). -/
def loss (X T : (X4 32 512).Idx → EReal) (M : (M4 32 512).Idx → BitVec 1) : EReal :=
  Ideal.div (sumPW X T M) (sumW T M * Ideal.ofBits .f32 0x41000000#32)

end Cert.Spec

end
-- ==== Proof.RefSide.lean ====
/-
  The reference side: the reference program's result, read stage by stage at an index, is the loss of the argument
  arrays as stated once over no program.

  The one stage that is a fold rather than an element-wise reading is the maximum over the channel axis: at a pixel
  it is the fold of `max` from −∞ over the pixel's eight targets. Every other stage reads one element of each of
  its operands, so an entry's value is its loss term times the weight of the pixel under it, and the two sums, each
  started from the number 0, are the weighted sum of the terms and the sum of the weights.
-/
import proofs.«174528_j807453851770_1_alg».proof.Proof.Gen.ReferenceIdeal.Read
import proofs.«174528_j807453851770_1_alg».proof.Proof.Spec

noncomputable section

namespace Cert.RefSide
open Idealize.ShloMosaic Cert.ReferenceIdeal Cert.ReferenceIdeal.Read

/-- Dropping axis 1 of [32,8,512,512] leaves [32,512,512]. -/
theorem reduces_d1 : S32x8x512x512.Reduces [1] S32x512x512 := by decide

/-- The maximum over the channel axis, read at an index of the reduced array: the fold of `max` from −∞ over the
    eight coordinates of the dropped axis. -/
theorem v0_fold (T : (⟨S32x8x512x512, .f32⟩ : BufTy).Contents (Elt Ideal)) (j : S32x512x512.Idx) :
    val_main_v0 (F := Ideal) T j
      = (Finset.univ : Finset (Fin 8)).fold max (Ideal.ofBits .f32 0xFF800000#32) (fun c => T (reduces_d1.lift j c)) := by
  unfold val_main_v0
  exact Host.reduce_eq_fold_single (s := S32x8x512x512) (t := S32x512x512) (a := (1 : Fin 4)) (u := S_)
    (FloatOps.maximumf (F := Ideal) (φ := .f32)) T (val_main_cst (F := Ideal))
    Gen.reducesTo_S32x8x512x512_S32x512x512_d1 reduces_d1 Gen.h_S_ j

/-- The entry over the pixel `q` with channel `c` inserted on axis 1. -/
theorem lift_eq_chan (q : S32x1x512x512.Idx) (c : Fin 8) :
    reduces_d1.lift (idx_main_v1 q) c = Cert.Spec.chan (N := 32) (H := 512) q c := by
  funext a
  match a with
  | ⟨0, _⟩ => rfl
  | ⟨1, _⟩ => rfl
  | ⟨2, _⟩ => rfl
  | ⟨3, _⟩ => rfl

/-- The maximum over the channel axis, read under a pixel, is the largest of the pixel's eight targets. -/
theorem v0_eq (T : (⟨S32x8x512x512, .f32⟩ : BufTy).Contents (Elt Ideal)) (q : S32x1x512x512.Idx) :
    val_main_v0 (F := Ideal) T (idx_main_v1 q) = Cert.Spec.cmax (N := 32) (H := 512) T q := by
  rw [v0_fold]
  unfold Cert.Spec.cmax
  exact congrArg (fun f : Fin 8 → EReal => Finset.fold max (Ideal.ofBits .f32 0xFF800000#32) f Finset.univ)
    (funext fun c => congrArg T (lift_eq_chan q c))

/-- A pixel's weight as the reference computes it: the bit "marked, or largest target above 1/2", as a number. -/
theorem v14_eq (T : (⟨S32x8x512x512, .f32⟩ : BufTy).Contents (Elt Ideal))
    (M : (⟨S32x1x512x512, .i1⟩ : BufTy).Contents (Elt Ideal)) (q : S32x1x512x512.Idx) :
    val_main_v14 (F := Ideal) T M q = Cert.Spec.wgt (N := 32) (H := 512) T M q := by
  rw [val_main_v14_apply, val_main_v4_apply, val_main_v3_apply, val_main_v1_apply, val_main_v2_apply,
    val_main_cst_0_apply, v0_eq]
  rfl

/-- An entry's loss term as the reference computes it. -/
theorem v13_eq (X T : (⟨S32x8x512x512, .f32⟩ : BufTy).Contents (Elt Ideal)) (j : S32x8x512x512.Idx) :
    val_main_v13 (F := Ideal) X T j = Cert.Spec.term (X j) (T j) := by
  rw [val_main_v13_apply, val_main_v8_apply, val_main_v6_apply, val_main_v7_apply, val_main_v12_apply,
    val_main_v11_apply, val_main_v10_apply, val_main_v9_apply, val_main_v5_apply, val_main_cst_1_apply]
  rfl

/-- The index the weights are broadcast from is the pixel under the entry. -/
theorem idx_v15_eq_pix (j : S32x8x512x512.Idx) : idx_main_v15 j = Cert.Spec.pix (N := 32) (H := 512) j := by
  funext a
  match a with
  | ⟨0, _⟩ => rfl
  | ⟨1, _⟩ => rfl
  | ⟨2, _⟩ => rfl
  | ⟨3, _⟩ => rfl

/-- An entry's weighted term: its loss term times the weight of the pixel under it. -/
theorem v16_eq (X T : (⟨S32x8x512x512, .f32⟩ : BufTy).Contents (Elt Ideal))
    (M : (⟨S32x1x512x512, .i1⟩ : BufTy).Contents (Elt Ideal)) (j : S32x8x512x512.Idx) :
    val_main_v16 (F := Ideal) X T M j
      = Cert.Spec.term (X j) (T j) * Cert.Spec.wgt (N := 32) (H := 512) T M (Cert.Spec.pix j) := by
  rw [val_main_v16_apply, val_main_v15_apply, v13_eq, v14_eq, idx_v15_eq_pix]
  rfl

/-- The reference's result is the loss of the argument arrays: the weighted sum of the loss terms over the sum of the
    weights times 8. Both sums start from the zero word, which is the number 0. -/
theorem ref_eq (X T : (⟨S32x8x512x512, .f32⟩ : BufTy).Contents (Elt Ideal)) (M : (⟨S32x1x512x512, .i1⟩ : BufTy).Contents (Elt Ideal)) :
    val_main_v20 (F := Ideal) X T M = fun _ => Cert.Spec.loss X T M := by
  funext i
  rw [val_main_v20_apply, val_main_v17_apply, val_main_v19_apply, val_main_v18_apply,
    val_main_cst_2_apply, val_main_cst_3_apply, val_main_cst_4_apply]
  have h16 : (∑ j : S32x8x512x512.Idx, val_main_v16 (F := Ideal) X T M j) = Cert.Spec.sumPW X T M :=
    Finset.sum_congr rfl (fun j _ => v16_eq X T M j)
  have h14 : (∑ q : S32x1x512x512.Idx, val_main_v14 (F := Ideal) T M q) = Cert.Spec.sumW T M :=
    Finset.sum_congr rfl (fun q _ => v14_eq T M q)
  rw [h16, h14]
  show Ideal.div (Ideal.ofBits .f32 0x00000000#32 + Cert.Spec.sumPW X T M)
      ((Ideal.ofBits .f32 0x00000000#32 + Cert.Spec.sumW T M) * Ideal.ofBits .f32 0x41000000#32) = _
  rw [Ideal.ofBits_zero_f32, zero_add, zero_add]
  rfl

end Cert.RefSide

end
-- ==== Proof.Pieces.lean ====
/-
  What one run of the kernel body leaves in its two (1, 1) accumulators, as the body's own arithmetic.

  The body is run in two cases. At the first grid point it first stores the zero block into both accumulators, reads
  each back, and stores the read-back value plus the block's contribution; so it leaves `0-block + contribution`.
  At every later point the accumulators hold what the point before left, `acc`, and the body stores
  `acc + contribution`. The contributions are the pure terms the body computes from the three input blocks: the weighted
  sum of the block's loss terms for the first accumulator, the sum of the block's weights for the second. Nothing here
  depends on the float instance.
-/
import proofs.«174528_j807453851770_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of an access to a whole (1, 1) buffer, -/
theorem hz2 : (![0, 0] : Fin 2 → Nat) = fun _ => 0 := funext fun a => by fin_cases a <;> rfl
/-- and of an access to a whole four-axis block. -/
theorem hz4 : (![0, 0, 0, 0] : Fin 4 → Nat) = fun _ => 0 := funext fun a => by fin_cases a <;> rfl

/-- A LATER point, first accumulator: what the point before left, plus the block's weighted sum of loss terms. -/
theorem out_B_3 (c : Dev nD) (i : grid0.Coords) (a2 : Memref sig .tc .vmem S1x8x128x512 .f32) (h2 : a2.IsWhole)
    (a3 : Memref sig .tc .vmem S1x8x128x512 .f32) (h3 : a3.IsWhole) (a4 : Memref sig .tc .vmem S1x1x128x512 .f32) (h4 : a4.IsWhole)
    (a5 : Memref sig .tc .vmem S1x1 .f32) (h5 : a5.IsWhole) (a6 : Memref sig .tc .vmem S1x1 .f32) (h6 : a6.IsWhole) (hc : ¬cond0_0 i)
    (x0 x1 : Vec F S1x8x128x512 .f32) (x2 : Vec F S1x1x128x512 .f32) (xo3 xo4 : Vec F S1x1 .f32) :
    out0_B_3 c i a2 h2 a3 h3 a4 h4 a5 h5 a6 h6 hc x0 x1 x2 xo3 xo4 = k0_pay1 (k0_pay6 x0 x1 x2) xo3 := by
  unfold out0_B_3
  rw [View.read_writes_eq_canon _ _ _ (cover0_B_3 c i a2 h2 a3 h3 a4 h4 a5 h5 a6 h6 hc x0 x1 x2 xo3 xo4)]
  unfold kernelRun0_B
  dsimp only
  sl_unfold_words
  rw [View.canon_unit_zero hz2]
  simp only [View.readAt_eq_ld, h2.read_unread, h3.read_unread, h4.read_unread, h5.read_unread, h6.read_unread,
    View.ld_unit_zero (S := S1x8x128x512) hz4, View.ld_unit_zero (S := S1x1x128x512) hz4, View.ld_unit_zero (S := S1x1) hz2]

/-- A LATER point, second accumulator: what the point before left, plus the sum of the block's weights. -/
theorem out_B_4 (c : Dev nD) (i : grid0.Coords) (a2 : Memref sig .tc .vmem S1x8x128x512 .f32) (h2 : a2.IsWhole)
    (a3 : Memref sig .tc .vmem S1x8x128x512 .f32) (h3 : a3.IsWhole) (a4 : Memref sig .tc .vmem S1x1x128x512 .f32) (h4 : a4.IsWhole)
    (a5 : Memref sig .tc .vmem S1x1 .f32) (h5 : a5.IsWhole) (a6 : Memref sig .tc .vmem S1x1 .f32) (h6 : a6.IsWhole) (hc : ¬cond0_0 i)
    (x0 x1 : Vec F S1x8x128x512 .f32) (x2 : Vec F S1x1x128x512 .f32) (xo3 xo4 : Vec F S1x1 .f32) :
    out0_B_4 c i a2 h2 a3 h3 a4 h4 a5 h5 a6 h6 hc x0 x1 x2 xo3 xo4 = k0_pay2 (k0_pay7 x1 x2) xo4 := by
  unfold out0_B_4
  rw [View.read_writes_eq_canon _ _ _ (cover0_B_4 c i a2 h2 a3 h3 a4 h4 a5 h5 a6 h6 hc x0 x1 x2 xo3 xo4)]
  unfold kernelRun0_B
  dsimp only
  sl_unfold_words
  rw [View.canon_unit_zero hz2]
  simp only [View.readAt_eq_ld, h2.read_unread, h3.read_unread, h4.read_unread, h5.read_unread, h6.read_unread,
    View.ld_unit_zero (S := S1x8x128x512) hz4, View.ld_unit_zero (S := S1x1x128x512) hz4, View.ld_unit_zero (S := S1x1) hz2]

/-- The FIRST point, first accumulator: the zero block the body has just stored, plus the block's weighted sum. -/
theorem out_A_3 (c : Dev nD) (i : grid0.Coords) (a2 : Memref sig .tc .vmem S1x8x128x512 .f32) (h2 : a2.IsWhole)
    (a3 : Memref sig .tc .vmem S1x8x128x512 .f32) (h3 : a3.IsWhole) (a4 : Memref sig .tc .vmem S1x1x128x512 .f32) (h4 : a4.IsWhole)
    (a5 : Memref sig .tc .vmem S1x1 .f32) (h5 : a5.IsWhole) (a6 : Memref sig .tc .vmem S1x1 .f32) (h6 : a6.IsWhole) (hc : cond0_0 i)
    (x0 x1 : Vec F S1x8x128x512 .f32) (x2 : Vec F S1x1x128x512 .f32) :
    out0_A_3 c i a2 h2 a3 h3 a4 h4 a5 h5 a6 h6 hc x0 x1 x2 = k0_pay1 (k0_pay6 x0 x1 x2) (k0_pay3 (F := F)) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h6.read_unread,
    View.ld_unit_zero (S := S1x8x128x512) hz4, View.ld_unit_zero (S := S1x1x128x512) hz4, View.ld_unit_zero (S := S1x1) hz2]

/-- The FIRST point, second accumulator: the zero block the body has just stored, plus the sum of the block's weights. -/
theorem out_A_4 (c : Dev nD) (i : grid0.Coords) (a2 : Memref sig .tc .vmem S1x8x128x512 .f32) (h2 : a2.IsWhole)
    (a3 : Memref sig .tc .vmem S1x8x128x512 .f32) (h3 : a3.IsWhole) (a4 : Memref sig .tc .vmem S1x1x128x512 .f32) (h4 : a4.IsWhole)
    (a5 : Memref sig .tc .vmem S1x1 .f32) (h5 : a5.IsWhole) (a6 : Memref sig .tc .vmem S1x1 .f32) (h6 : a6.IsWhole) (hc : cond0_0 i)
    (x0 x1 : Vec F S1x8x128x512 .f32) (x2 : Vec F S1x1x128x512 .f32) :
    out0_A_4 c i a2 h2 a3 h3 a4 h4 a5 h5 a6 h6 hc x0 x1 x2 = k0_pay2 (k0_pay7 x1 x2) (k0_pay4 (F := F)) := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h6.read_unread,
    View.ld_unit_zero (S := S1x8x128x512) hz4, View.ld_unit_zero (S := S1x1x128x512) hz4, View.ld_unit_zero (S := S1x1) hz2]

end Cert.KernelIdeal.Pieces

end
-- ==== Proof.Accum.lean ====
/-
  The two accumulators over the whole grid, and what the program returns from them.

  The grid has 128 points, visited in order. After point 0 the accumulators hold the zero block plus point 0's
  contributions; after point n + 1, what they held after point n plus point n + 1's contributions (`chain`). Both
  accumulators are written back to their (1, 1) result arrays once, after the last point, and each block IS its whole
  array; so the result arrays end holding the chain's last value. The host operations after the kernel reshape the two
  (1, 1) arrays to scalars and return the first divided by (the second times 8). Nothing here depends on the float
  instance.
-/
import proofs.«174528_j807453851770_1_alg».proof.Proof.Pieces
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Pieces

variable {F : FTy → Type} [FloatOps F]
variable (m : (ℓ : Loc nD τ sig) → Buf (Elt F) ℓ) (ρ : Dev nD → PrngReg)

/-- Point `t`'s contribution to the first accumulator: the weighted sum of the loss terms of the blocks at `t`. -/
abbrev contribPW (c : Dev nD) (t : Fin cfg0.N) : FVec F S1x1 .f32 :=
  k0_pay6 (iblk m c 0 t) (iblk m c 1 t) (iblk m c 2 t)

/-- What point `t`'s second store adds onto: the weights of the blocks at `t`, before they are summed. -/
abbrev contribW (c : Dev nD) (t : Fin cfg0.N) : FVec F S1x1x1x128x512 .f32 :=
  k0_pay7 (iblk m c 1 t) (iblk m c 2 t)

/-- The accumulators after point `n`. -/
def chain (c : Dev nD) : (n : ℕ) → n < cfg0.N → Vec F S1x1 .f32 × Vec F S1x1 .f32
  | 0, h => (k0_pay1 (contribPW m c ⟨0, h⟩) (k0_pay3 (F := F)), k0_pay2 (contribW m c ⟨0, h⟩) (k0_pay4 (F := F)))
  | n + 1, h => (k0_pay1 (contribPW m c ⟨n + 1, h⟩) (chain c n (Nat.lt_of_succ_lt h)).1,
      k0_pay2 (contribW m c ⟨n + 1, h⟩) (chain c n (Nat.lt_of_succ_lt h)).2)

/-- What the outputs' staging buffers hold after point `n` is the chain — by induction on the point. -/
theorem outsAt_eq (c : Dev nD) : ∀ (n : ℕ) (h : n < cfg0.N), outsAt0 m c n h = chain m c n h
  | 0, h => by
    rw [outsAt0_A m c ⟨0, h⟩ rfl]
    exact Prod.ext
      (out_A_3 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl) (iblk m c 0 ⟨0, h⟩) (iblk m c 1 ⟨0, h⟩) (iblk m c 2 ⟨0, h⟩))
      (out_A_4 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl) (iblk m c 0 ⟨0, h⟩) (iblk m c 1 ⟨0, h⟩) (iblk m c 2 ⟨0, h⟩))
  | n + 1, h => by
    have hN : cfg0.N = 128 := N_0
    have hB : ¬(⟨n + 1, h⟩ : Fin cfg0.N).val % 128 = 0 := by dsimp only; omega
    rw [outsAt0_B m c ⟨n + 1, h⟩ hB]
    have ih := outsAt_eq c n (Nat.lt_of_succ_lt h)
    refine Prod.ext ?_ ?_
    · refine (out_B_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hB ((hcond0_0 ⟨n + 1, h⟩).mp hh)) (iblk m c 0 ⟨n + 1, h⟩) (iblk m c 1 ⟨n + 1, h⟩) (iblk m c 2 ⟨n + 1, h⟩)
        (outsAt0 m c n (Nat.lt_of_succ_lt h)).1 (outsAt0 m c n (Nat.lt_of_succ_lt h)).2).trans ?_
      show k0_pay1 _ (outsAt0 m c n _).1 = k0_pay1 _ (chain m c n _).1
      rw [ih]
    · refine (out_B_4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hB ((hcond0_0 ⟨n + 1, h⟩).mp hh)) (iblk m c 0 ⟨n + 1, h⟩) (iblk m c 1 ⟨n + 1, h⟩) (iblk m c 2 ⟨n + 1, h⟩)
        (outsAt0 m c n (Nat.lt_of_succ_lt h)).1 (outsAt0 m c n (Nat.lt_of_succ_lt h)).2).trans ?_
      show k0_pay2 _ (outsAt0 m c n _).2 = k0_pay2 _ (chain m c n _).2
      rw [ih]

/-- The last grid point. -/
abbrev tLast : Fin cfg0.N := ⟨127, by rw [show cfg0.N = 128 from N_0]; decide⟩

/-- The first accumulator after the last point, as contents of its (1, 1) result array. -/
abbrev result3 (c : Dev nD) : Buf (Elt F) ((c : Thread nD τ).loc main_v1_0) := (chain m c 127 (by rw [show cfg0.N = 128 from N_0]; decide)).1

/-- The one write-back of output 3, after the last point, writes it: the block at zero offsets IS the (1, 1) array. -/
theorem flushed_eq3 (c : Dev nD) (t : Fin cfg0.N) (hf : (cfg0.win 3).flush t = true) :
    (dats m 0 c).flushed 3 t = ((cfg0.win 3).blk t).view.read (Elt F) (result3 m c) := by
  have hN : cfg0.N = 128 := N_0
  have h3 : t.val = 127 := by have := (flush0_3 t).mp hf; have := t.isLt; omega
  obtain rfl : t = tLast := Fin.ext h3
  show (cfg0.win 3).cut (grid0.coords tLast) ((dats m 0 c).after 3 tLast) = _
  rw [after0_3, outsAt_eq]
  have hz' : (fun a => win0_3.index tLast a * main_v1_0.ty.shape.size a) = fun _ => 0 := funext fun a => by fin_cases a <;> rfl
  exact (Memref.read_access_unit_zero (Elt F) main_v1_0 hz' (fun a => by rw [congrFun hz' a]; simp) (result3 m c)).symm

/-- So result array 3 ends holding the first accumulator's last value: the last point's block covers it. -/
theorem final3 (c : Dev nD) : (dats m 0 c).arrAt 3 cfg0.N = result3 m c :=
  (dats m 0 c).arrAt_eq_of_cover 3 (result3 m c) (flushed_eq3 m c) fun i =>
    ⟨tLast, (flush0_3 tLast).mpr rfl, by
      show i ∈ ((View.whole main_v1_0).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from rfl, show win0_3.xsize (grid0.coords tLast) 0 = 1 from rfl]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from rfl, show win0_3.xsize (grid0.coords tLast) 1 = 1 from rfl]; omega⟩

/-- The second accumulator after the last point, as contents of its (1, 1) result array. -/
abbrev result4 (c : Dev nD) : Buf (Elt F) ((c : Thread nD τ).loc main_v1_1) := (chain m c 127 (by rw [show cfg0.N = 128 from N_0]; decide)).2

/-- The one write-back of output 4, after the last point, writes it: the block at zero offsets IS the (1, 1) array. -/
theorem flushed_eq4 (c : Dev nD) (t : Fin cfg0.N) (hf : (cfg0.win 4).flush t = true) :
    (dats m 0 c).flushed 4 t = ((cfg0.win 4).blk t).view.read (Elt F) (result4 m c) := by
  have hN : cfg0.N = 128 := N_0
  have h3 : t.val = 127 := by have := (flush0_4 t).mp hf; have := t.isLt; omega
  obtain rfl : t = tLast := Fin.ext h3
  show (cfg0.win 4).cut (grid0.coords tLast) ((dats m 0 c).after 4 tLast) = _
  rw [after0_4, outsAt_eq]
  have hz' : (fun a => win0_4.index tLast a * main_v1_1.ty.shape.size a) = fun _ => 0 := funext fun a => by fin_cases a <;> rfl
  exact (Memref.read_access_unit_zero (Elt F) main_v1_1 hz' (fun a => by rw [congrFun hz' a]; simp) (result4 m c)).symm

/-- So result array 4 ends holding the second accumulator's last value: the last point's block covers it. -/
theorem final4 (c : Dev nD) : (dats m 0 c).arrAt 4 cfg0.N = result4 m c :=
  (dats m 0 c).arrAt_eq_of_cover 4 (result4 m c) (flushed_eq4 m c) fun i =>
    ⟨tLast, (flush0_4 tLast).mpr rfl, by
      show i ∈ ((View.whole main_v1_1).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from rfl, show win0_4.xsize (grid0.coords tLast) 0 = 1 from rfl]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from rfl, show win0_4.xsize (grid0.coords tLast) 1 = 1 from rfl]; omega⟩

/-- The host operations after the kernel: the two (1, 1) result arrays reshaped to scalars, the second times 8, the
    first divided by that. -/
abbrev tail (a3 : Vec F S1x1 .f32) (a4 : Vec F S1x1 .f32) : FVec F S_ .f32 :=
  Host.divf (F := F) (shapeCast S_ a3 shapeCasts_S1x1_S_) (mulf (shapeCast S_ a4 shapeCasts_S1x1_S_) (constant (F := F) S_ .f32 0x41000000#32))

/-- What the program returns: the host tail of the two accumulators' last values. -/
theorem tail_v5 (c : Dev nD) :
    Pipeline.afterTail₀ cfgs (dats m) 0 (V0 m) [hostOps1] c main_v5 = tail (result3 m c) (result4 m c) := by
  unfold Pipeline.afterTail₀
  show StableHlo.after hostOps1 _ (Proc.devRef .tc main_v5) = _
  after_results
  have e3 : Pipeline.withArrays (cfgs 0).spec c (V0 m c) (fun w => (dats m 0 c).arrAt w (cfgs 0).N) (Proc.devRef .tc main_v1_0) = result3 m c :=
    (Pipeline.withArrays_arr spec0 launch0.win.arr_inj c _ _ 3).trans (final3 m c)
  have e4 : Pipeline.withArrays (cfgs 0).spec c (V0 m c) (fun w => (dats m 0 c).arrAt w (cfgs 0).N) (Proc.devRef .tc main_v1_1) = result4 m c :=
    (Pipeline.withArrays_arr spec0 launch0.win.arr_inj c _ _ 4).trans (final4 m c)
  rw [e3, e4]
  rfl

/-- The run, read: the result at the host tail of the accumulators' last values, the arguments unchanged. -/
theorem run : θ_run defs (onTc (τ := τ) (main (F := F))) ⟨m, fun _ => 0, ρ⟩ fun r => ∀ c : Dev nD,
      r.2.mem ((c.tc : Thread nD τ).loc main_v5) = tail (result3 m c) (result4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (tail_v5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Accum

end
-- ==== Proof.LibTileSum.lean ====
/-
  Tiles of a four-axis array, and sums over them.

  An array of shape [32, C, 512, 512] is cut into 128 tiles of shape [1, C, 128, 512]: tile `t` holds rows
  `128·(t mod 4) … 128·(t mod 4) + 127` of sample `t / 4`, every channel and every column. Each entry of the array lies in
  exactly one tile, so over any commutative additive monoid the sum over the array is the sum, over the tiles, of each
  tile's sum; and an accumulator that starts from `z`, adds tile 0's sum, then tile 1's, … holds after the last tile
  `z` plus the sum over the array.
-/
import Idealize.ShloMosaic.Lib.ValueIdx

noncomputable section

namespace Cert.Tile

open Idealize.ShloMosaic

/-- The whole array: 32 samples, `C` channels, 512 rows, 512 columns. -/
abbrev Big (C : ℕ) : Shape := ⟨4, ![32, C, 512, 512]⟩
/-- One tile: one sample, `C` channels, 128 rows, 512 columns. -/
abbrev Blk (C : ℕ) : Shape := ⟨4, ![1, C, 128, 512]⟩

/-- Where entry `y` of tile `t` sits in the whole array: sample `t / 4`, the same channel, row `128·(t mod 4) + y₂`,
    the same column. -/
def inBig (C : ℕ) (t : Fin 128) (y : (Blk C).Idx) : (Big C).Idx := fun a => match a with
  | ⟨0, _⟩ => ⟨t.val / 4 + (y 0).val, by
      have h0 : (y 0).val < 1 := (y 0).isLt
      have ht := t.isLt
      show _ < 32
      omega⟩
  | ⟨1, _⟩ => ⟨(y 1).val, (y 1).isLt⟩
  | ⟨2, _⟩ => ⟨t.val % 4 * 128 + (y 2).val, by
      have h2 : (y 2).val < 128 := (y 2).isLt
      show _ < 512
      omega⟩
  | ⟨3, _⟩ => ⟨(y 3).val, (y 3).isLt⟩

/-- The tile an entry lies in, and its place there. -/
def ofBig (C : ℕ) (j : (Big C).Idx) : Fin 128 × (Blk C).Idx :=
  (⟨(j 0).val * 4 + (j 2).val / 128, by
      have h0 : (j 0).val < 32 := (j 0).isLt
      have h2 : (j 2).val < 512 := (j 2).isLt
      omega⟩,
   fun a => match a with
    | ⟨0, _⟩ => ⟨0, Nat.one_pos⟩
    | ⟨1, _⟩ => ⟨(j 1).val, (j 1).isLt⟩
    | ⟨2, _⟩ => ⟨(j 2).val % 128, Nat.mod_lt _ (by decide)⟩
    | ⟨3, _⟩ => ⟨(j 3).val, (j 3).isLt⟩)

/-- Every entry of the array is one entry of one tile. -/
def tileEquiv (C : ℕ) : Fin 128 × (Blk C).Idx ≃ (Big C).Idx where
  toFun p := inBig C p.1 p.2
  invFun := ofBig C
  left_inv := by
    rintro ⟨t, y⟩
    have h0 : (y 0).val < 1 := (y 0).isLt
    have h2 : (y 2).val < 128 := (y 2).isLt
    have ht := t.isLt
    refine Prod.ext (Fin.ext ?_) (funext fun a => Fin.ext ?_)
    · show (t.val / 4 + (y 0).val) * 4 + (t.val % 4 * 128 + (y 2).val) / 128 = t.val
      omega
    · match a with
      | ⟨0, _⟩ => show 0 = (y 0).val; omega
      | ⟨1, _⟩ => rfl
      | ⟨2, _⟩ => show (t.val % 4 * 128 + (y 2).val) % 128 = (y 2).val; omega
      | ⟨3, _⟩ => rfl
  right_inv := by
    intro j
    have h0 : (j 0).val < 32 := (j 0).isLt
    have h2 : (j 2).val < 512 := (j 2).isLt
    refine funext fun a => Fin.ext ?_
    match a with
    | ⟨0, _⟩ => show ((j 0).val * 4 + (j 2).val / 128) / 4 + 0 = (j 0).val; omega
    | ⟨1, _⟩ => rfl
    | ⟨2, _⟩ => show ((j 0).val * 4 + (j 2).val / 128) % 4 * 128 + (j 2).val % 128 = (j 2).val; omega
    | ⟨3, _⟩ => rfl

/-- The sum over the array is the sum over the tiles of each tile's sum. -/
theorem sum_tiles {M : Type*} [AddCommMonoid M] (C : ℕ) (g : (Big C).Idx → M) :
    ∑ t : Fin 128, ∑ y : (Blk C).Idx, g (inBig C t y) = ∑ j : (Big C).Idx, g j :=
  (Fintype.sum_prod_type' (fun (t : Fin 128) (y : (Blk C).Idx) => g (inBig C t y))).symm.trans
    (Fintype.sum_equiv (tileEquiv C) _ _ (fun _ => rfl))

/-- An accumulator over steps `0, 1, 2, …`: it starts at `z + p 0` and adds `p (n + 1)` at step `n + 1`. -/
def acc {M : Type*} [AddCommMonoid M] (z : M) (p : ℕ → M) : ℕ → M
  | 0 => z + p 0
  | n + 1 => acc z p n + p (n + 1)

/-- After step `n` it holds `z` plus the first `n + 1` contributions. -/
theorem acc_eq {M : Type*} [AddCommMonoid M] (z : M) (p : ℕ → M) (n : ℕ) :
    acc z p n = z + ∑ k ∈ Finset.range (n + 1), p k := by
  induction n with
  | zero => simp [acc]
  | succ n ih => rw [acc, ih, Finset.sum_range_succ _ (n + 1), add_assoc]

/-- So after the last of the 128 tiles it holds `z` plus the sum of all of them. -/
theorem acc_last {M : Type*} [AddCommMonoid M] (z : M) (p : ℕ → M) :
    acc z p 127 = z + ∑ t : Fin 128, p t.val := by
  rw [acc_eq, Finset.sum_range]

end Cert.Tile

end
-- ==== Proof.Blocks.lean ====
/-
  The blocks the kernel body is given at a grid point, as entries of the argument arrays.

  Grid point `t` (of 128, sample-major) is given the block of rows `128·(t mod 4) …` of sample `t / 4` of the scores,
  of the targets, and of the marks as numbers: tile `t` of each array. The marks reach the kernel as numbers because one
  host operation before it turns each mark bit into 0 or 1.
-/
import proofs.«174528_j807453851770_1_alg».proof.Proof.Gen.KernelIdeal.Frame
import proofs.«174528_j807453851770_1_alg».proof.Proof.LibTileSum
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- A grid point as a tile number. -/
abbrev tile (t : Fin cfg0.N) : Fin 128 := ⟨t.val, lt_of_lt_of_eq t.isLt N_0⟩

/-- The three input windows' block indices at point `t` are (t / 4, 0, t mod 4, 0) — decided once over the grid. -/
theorem idx0 : ∀ t : Fin cfg0.N, win0_0.index t 0 = t.val / 4 ∧ win0_0.index t 1 = 0 ∧ win0_0.index t 2 = t.val % 4 ∧ win0_0.index t 3 = 0 :=
  (by decide +kernel : ∀ t : Fin grid0.N, win0_0.index t 0 = t.val / 4 ∧ win0_0.index t 1 = 0 ∧ win0_0.index t 2 = t.val % 4 ∧ win0_0.index t 3 = 0)
theorem idx1 : ∀ t : Fin cfg0.N, win0_1.index t 0 = t.val / 4 ∧ win0_1.index t 1 = 0 ∧ win0_1.index t 2 = t.val % 4 ∧ win0_1.index t 3 = 0 :=
  (by decide +kernel : ∀ t : Fin grid0.N, win0_1.index t 0 = t.val / 4 ∧ win0_1.index t 1 = 0 ∧ win0_1.index t 2 = t.val % 4 ∧ win0_1.index t 3 = 0)
theorem idx2 : ∀ t : Fin cfg0.N, win0_2.index t 0 = t.val / 4 ∧ win0_2.index t 1 = 0 ∧ win0_2.index t 2 = t.val % 4 ∧ win0_2.index t 3 = 0 :=
  (by decide +kernel : ∀ t : Fin grid0.N, win0_2.index t 0 = t.val / 4 ∧ win0_2.index t 1 = 0 ∧ win0_2.index t 2 = t.val % 4 ∧ win0_2.index t 3 = 0)

/-- Window 0's block at point `t`, entry by entry: the entries of `main_arg0` that tile `t` covers. -/
theorem iblk0_apply (c : Dev nD) (t : Fin cfg0.N) (y : S1x8x128x512.Idx) :
    (iblk m c 0 t : Vec F S1x8x128x512 .f32) y = V m c main_arg0 (Cert.Tile.inBig 8 (tile t) y) := by
  obtain ⟨e0, e1, e2, e3⟩ := idx0 t
  unfold iblk
  rw [View.read_apply]
  show V m c main_arg0 _ = V m c main_arg0 _
  refine congrArg (V m c main_arg0) (funext fun a => Fin.ext ?_)
  match a with
  | ⟨0, _⟩ => show win0_0.index t 0 * 1 + 1 * (y 0).val = t.val / 4 + (y 0).val; rw [e0]; omega
  | ⟨1, _⟩ => show win0_0.index t 1 * 8 + 1 * (y 1).val = (y 1).val; rw [e1]; omega
  | ⟨2, _⟩ => show win0_0.index t 2 * 128 + 1 * (y 2).val = t.val % 4 * 128 + (y 2).val; rw [e2]; omega
  | ⟨3, _⟩ => show win0_0.index t 3 * 512 + 1 * (y 3).val = (y 3).val; rw [e3]; omega

/-- Window 1's block at point `t`, entry by entry: the entries of `main_arg1` that tile `t` covers. -/
theorem iblk1_apply (c : Dev nD) (t : Fin cfg0.N) (y : S1x8x128x512.Idx) :
    (iblk m c 1 t : Vec F S1x8x128x512 .f32) y = V m c main_arg1 (Cert.Tile.inBig 8 (tile t) y) := by
  obtain ⟨e0, e1, e2, e3⟩ := idx1 t
  unfold iblk
  rw [View.read_apply]
  show V m c main_arg1 _ = V m c main_arg1 _
  refine congrArg (V m c main_arg1) (funext fun a => Fin.ext ?_)
  match a with
  | ⟨0, _⟩ => show win0_1.index t 0 * 1 + 1 * (y 0).val = t.val / 4 + (y 0).val; rw [e0]; omega
  | ⟨1, _⟩ => show win0_1.index t 1 * 8 + 1 * (y 1).val = (y 1).val; rw [e1]; omega
  | ⟨2, _⟩ => show win0_1.index t 2 * 128 + 1 * (y 2).val = t.val % 4 * 128 + (y 2).val; rw [e2]; omega
  | ⟨3, _⟩ => show win0_1.index t 3 * 512 + 1 * (y 3).val = (y 3).val; rw [e3]; omega

/-- Window 2's block at point `t`, entry by entry: the entries of `main_v0` that tile `t` covers. -/
theorem iblk2_apply (c : Dev nD) (t : Fin cfg0.N) (y : S1x1x128x512.Idx) :
    (iblk m c 2 t : Vec F S1x1x128x512 .f32) y = V m c main_v0 (Cert.Tile.inBig 1 (tile t) y) := by
  obtain ⟨e0, e1, e2, e3⟩ := idx2 t
  unfold iblk
  rw [View.read_apply]
  show V m c main_v0 _ = V m c main_v0 _
  refine congrArg (V m c main_v0) (funext fun a => Fin.ext ?_)
  match a with
  | ⟨0, _⟩ => show win0_2.index t 0 * 1 + 1 * (y 0).val = t.val / 4 + (y 0).val; rw [e0]; omega
  | ⟨1, _⟩ => show win0_2.index t 1 * 1 + 1 * (y 1).val = (y 1).val; rw [e1]; omega
  | ⟨2, _⟩ => show win0_2.index t 2 * 128 + 1 * (y 2).val = t.val % 4 * 128 + (y 2).val; rw [e2]; omega
  | ⟨3, _⟩ => show win0_2.index t 3 * 512 + 1 * (y 3).val = (y 3).val; rw [e3]; omega

/-- The marks as the kernel finds them: each mark bit turned into the number 0 or 1 by the host operation before it. -/
theorem V_main_v0 (c : Dev nD) :
    (V m c main_v0 : S32x1x512x512.Idx → Elt F .f32) = uitofp .f32 (m ((c : Thread nD τ).loc main_arg2)) := by
  show StableHlo.after hostOps0 (fun b => m (c, b)) (Proc.devRef .tc main_v0) = _
  after_results

end Cert.KernelIdeal.Blocks

end
-- ==== Proof.Payload.lean ====
/-
  One block's arithmetic, read at the exact instance.

  The body works on one block of scores and targets of shape [1, 8, 128, 512] and one block of marks-as-numbers of
  shape [1, 1, 128, 512]. Here each of its pure values is read as the mathematics it computes: the weight of a pixel
  (the disjunction of "marked" and "largest target above 1/2", read as 0 or 1), the loss term of an entry, the sum
  over the block of term × weight, the sum over the block of the weights, and the two accumulator updates.
-/
import proofs.«174528_j807453851770_1_alg».proof.Proof.Gen.KernelIdeal.Skeleton
import proofs.«174528_j807453851770_1_alg».proof.Proof.Spec
import Idealize.ShloMosaic.Lib.Pipeline.Value
import Idealize.ShloMosaic.Lib.ValueIdx
import Idealize.ShloMosaic.PureOps.Ideal.Laws

namespace Cert.KernelIdeal.Payload
open Idealize.ShloMosaic Cert.KernelIdeal Cert.KernelIdeal.Gen
variable [Cert.KernelIdeal.Facts]

/-- the accumulator plus a block's contribution -/
theorem pay1_eq (v : FVec Ideal S1x1 .f32) (xo : Vec Ideal S1x1 .f32) :
    k0_pay1 (F := Ideal) v xo = fun i => xo i + v i := by
  funext i
  unfold k0_pay1
  show (shapeCast S1x1 xo shapeCasts_S1x1_S1x1) i + v i = xo i + v i
  rw [shapeCast_self]

/-- The loss term of one entry, as the block's pointwise operations spell it: the subtraction from the zero word is
    the negation. -/
theorem term_at (x t : EReal) :
    (max x (Ideal.ofBits .f32 0x00000000#32) - x * t)
        + Ideal.log1p (Ideal.exp (Ideal.ofBits .f32 0x00000000#32 - max x (-x)))
      = Cert.Spec.term x t := by
  unfold Cert.Spec.term
  rw [Ideal.ofBits_zero_f32, zero_sub]

/-- A vector of shape [a, b, c] re-read under the shape [1, a, b, c]: the entry (0, i, j, k) is the entry (i, j, k). -/
theorem addUnit_gen {α : Type} (a b c : Nat) (v : (⟨3, ![a, b, c]⟩ : Shape).Idx → α)
    (h : (⟨3, ![a, b, c]⟩ : Shape).ShapeCasts ⟨4, ![1, a, b, c]⟩) (j : (⟨4, ![1, a, b, c]⟩ : Shape).Idx) :
    shapeCast ⟨4, ![1, a, b, c]⟩ v h j = v (fun k => j k.succ) :=
  shapeCast_addUnit_apply ![a, b, c] v h j

theorem addUnit_lit (v : FVec Ideal S1x128x512 .f32) (q : S1x1x128x512.Idx) :
    shapeCast S1x1x128x512 v shapeCasts_S1x128x512_S1x1x128x512 q = v (fun k => q k.succ) :=
  addUnit_gen 1 128 512 v shapeCasts_S1x128x512_S1x1x128x512 q

/-- The block's maximum over the channel axis, read at (n, h, w): the fold of `max` from the starting word over the
    eight channels of that pixel. -/
theorem maxred_at (x1 : Vec Ideal S1x8x128x512 .f32) (r : S1x128x512.Idx) :
    multiReduction (F := Ideal) .maximumf [1] S1x128x512 x1 0xFF800000#32 reduces_S1x8x128x512_S1x128x512 (.inl rfl) rfl r
      = (Finset.univ : Finset (Fin 8)).fold max (Ideal.ofBits .f32 0xFF800000#32)
          (fun c => x1 ((reduces_S1x8x128x512_S1x128x512).lift r c)) :=
  Ideal.multiReduction_maximumf_single (φ := .f32) (s := S1x8x128x512) (t := S1x128x512) (a := 1) x1 0xFF800000#32
    reduces_S1x8x128x512_S1x128x512 (.inl rfl) rfl r

/-- The largest of a pixel's eight targets, as the block computes it: the maximum over the channel axis, re-read with
    the unit axis added. The kept unit axis and the added one both have the one coordinate 0. -/
theorem cmax_at (x1 : Vec Ideal S1x8x128x512 .f32) (q : S1x1x128x512.Idx) :
    shapeCast S1x1x128x512
        (multiReduction (F := Ideal) .maximumf [1] S1x128x512 x1 0xFF800000#32 reduces_S1x8x128x512_S1x128x512 (.inl rfl) rfl)
        shapeCasts_S1x128x512_S1x1x128x512 q
      = Cert.Spec.cmax (N := 1) (H := 128) x1 q := by
  refine (addUnit_lit (multiReduction (F := Ideal) .maximumf [1] S1x128x512 x1 0xFF800000#32
    reduces_S1x8x128x512_S1x128x512 (.inl rfl) rfl) q).trans ?_
  refine (maxred_at x1 (fun k => q k.succ)).trans ?_
  unfold Cert.Spec.cmax
  refine congrArg (fun f => Finset.fold max (Ideal.ofBits .f32 0xFF800000#32) f (Finset.univ : Finset (Fin 8)))
    (funext fun c => congrArg x1 ?_)
  have h0 : (q 0).val < 1 := (q 0).isLt
  have h1 : (q 1).val < 1 := (q 1).isLt
  funext a
  match a with
  | ⟨0, _⟩ => exact Fin.ext (show (q 1).val = (q 0).val by omega)
  | ⟨1, _⟩ => exact Fin.ext rfl
  | ⟨2, _⟩ => exact Fin.ext rfl
  | ⟨3, _⟩ => exact Fin.ext rfl

/-- The weight's operations on variable vectors, read at a pixel: the two comparisons with the threshold word, their
    disjunction, the widening to 32 bits and the signed reading. -/
theorem wgt_ops_at (m c : FVec Ideal S1x1x128x512 .f32) (w : BitVec 32) (q : S1x1x128x512.Idx) :
    sitofp (F := Ideal) .f32 (extui 32 (ori (cmpf .ogt m (broadcast S1x1x128x512 (Scalar.ofBits (F := Ideal) .f32 w)))
        (cmpf .ogt c (broadcast S1x1x128x512 (Scalar.ofBits (F := Ideal) .f32 w)))) natLt_1_32) q
      = ((((Ideal.cmp .ogt (m q) (Ideal.ofBits .f32 w) ||| Ideal.cmp .ogt (c q) (Ideal.ofBits .f32 w)).setWidth 32).toInt : ℝ) : EReal) :=
  rfl

/-- The block's weight at a pixel is the weight of the marks given as numbers. -/
theorem pay5_at (x1 : Vec Ideal S1x8x128x512 .f32) (x2 : Vec Ideal S1x1x128x512 .f32) (q : S1x1x128x512.Idx) :
    k0_pay5 (F := Ideal) x1 x2 q = Cert.Spec.wgtK (N := 1) (H := 128) x1 x2 q := by
  unfold k0_pay5 Cert.Spec.wgtK
  refine (wgt_ops_at (shapeCast S1x1x128x512 x2 shapeCasts_S1x1x128x512_S1x1x128x512)
    (shapeCast S1x1x128x512
      (multiReduction (F := Ideal) .maximumf [1] S1x128x512 x1 0xFF800000#32 reduces_S1x8x128x512_S1x128x512 (.inl rfl) rfl)
      shapeCasts_S1x128x512_S1x1x128x512) 0x3F000000#32 q).trans ?_
  rw [congrFun (shapeCast_self x2 shapeCasts_S1x1x128x512_S1x1x128x512) q, cmax_at x1 q]

/-- The per-pixel weights broadcast over the channel axis: an entry reads the weight of the pixel under it. -/
theorem bcast_at (wv : FVec Ideal S1x1x128x512 .f32) (j : S1x8x128x512.Idx) :
    broadcastTo S1x8x128x512 wv broadcasts_S1x1x128x512_S1x8x128x512 j = wv (Cert.Spec.pix (N := 1) (H := 128) j) := by
  refine broadcastTo_apply wv broadcasts_S1x1x128x512_S1x8x128x512 j (Cert.Spec.pix (N := 1) (H := 128) j) fun a => ?_
  have h0 : (j 0).val < 1 := (j 0).isLt
  match a with
  | ⟨0, _⟩ => exact (show (j 0).val = 0 by omega).trans (if_pos rfl).symm
  | ⟨1, _⟩ => exact (if_pos rfl).symm
  | ⟨2, _⟩ => exact (if_neg (show ¬ ((128 : ℕ) = 1) by omega)).symm
  | ⟨3, _⟩ => exact (if_neg (show ¬ ((512 : ℕ) = 1) by omega)).symm

/-- The loss term's operations on variable vectors, read at an entry. -/
theorem term_ops_at (x t : FVec Ideal S1x8x128x512 .f32) (w : BitVec 32) (j : S1x8x128x512.Idx) :
    addf (subf (maximumf x (broadcast S1x8x128x512 (Scalar.ofBits (F := Ideal) .f32 w))) (mulf x t))
        (log1p (exp (subf (broadcast S1x8x128x512 (Scalar.ofBits (F := Ideal) .f32 w)) (absf x)))) j
      = (max (x j) (Ideal.ofBits .f32 w) - x j * t j)
          + Ideal.log1p (Ideal.exp (Ideal.ofBits .f32 w - max (x j) (-(x j)))) :=
  rfl

/-- One block's weighted loss terms, entry by entry, as the body's pointwise operations compute them. -/
noncomputable def prodVec (x0 x1 : Vec Ideal S1x8x128x512 .f32) (x2 : Vec Ideal S1x1x128x512 .f32) :
    FVec Ideal S1x8x128x512 .f32 :=
  mulf
    (addf (subf (maximumf x0 (broadcast S1x8x128x512 (Scalar.ofBits (F := Ideal) .f32 0x00000000#32))) (mulf x0 x1))
      (log1p (exp (subf (broadcast S1x8x128x512 (Scalar.ofBits (F := Ideal) .f32 0x00000000#32)) (absf x0)))))
    (broadcastTo S1x8x128x512 (k0_pay5 (F := Ideal) x1 x2) broadcasts_S1x1x128x512_S1x8x128x512)

/-- An entry of it is the loss term of the entry times the weight of the pixel under it. -/
theorem prodVec_at (x0 x1 : Vec Ideal S1x8x128x512 .f32) (x2 : Vec Ideal S1x1x128x512 .f32) (j : S1x8x128x512.Idx) :
    prodVec x0 x1 x2 j
      = Cert.Spec.term (x0 j) (x1 j) * Cert.Spec.wgtK (N := 1) (H := 128) x1 x2 (Cert.Spec.pix (N := 1) (H := 128) j) := by
  unfold prodVec
  rw [ValueIdx.mulf_apply, term_ops_at x0 x1 0x00000000#32 j, term_at (x0 j) (x1 j),
    bcast_at (k0_pay5 (F := Ideal) x1 x2) j, pay5_at x1 x2 (Cert.Spec.pix (N := 1) (H := 128) j)]

/-- The sum over every entry of a vector re-read under another shape is the sum over every entry of the vector: the
    re-reading is a bijection of the index sets. -/
theorem sum_shapeCast {s t : Shape} (v : s.Idx → EReal) (h : s.ShapeCasts t) :
    ∑ i : t.Idx, shapeCast t v h i = ∑ k : s.Idx, v k :=
  Equiv.sum_comp (Shape.reshapeEquiv h) v

/-- A one-entry vector whose entry is `c`, re-read as [1,1,1,1,1], taken at its one position and broadcast to [1,1],
    is `c` everywhere. -/
theorem carry_at (f : FVec Ideal S1 .f32) (c : EReal) (hf : ∀ r, f r = c) (i : S1x1.Idx) :
    broadcast S1x1 (extractAt ![0, 0, 0, 0, 0] (shapeCast S1x1x1x1x1 f shapeCasts_S1_S1x1x1x1x1)
      inpos_S1x1x1x1x1_p0_0_0_0_0) i = c :=
  hf _

/-- The sum of a [1,1,8,128,512] vector over its last four axes, at the one index left, is the sum of every entry. -/
theorem total5a_at (v : FVec Ideal S1x1x8x128x512 .f32) (r : S1.Idx) :
    multiReduction (F := Ideal) .add [1, 2, 3, 4] S1 v 0x00000000#32 reduces_S1x1x8x128x512_S1 (.inl rfl) rfl r
      = ∑ i, v i :=
  Ideal.multiReduction_add_total (φ := .f32) (s := S1x1x8x128x512) (t := S1) v 0x00000000#32 reduces_S1x1x8x128x512_S1
    (fun b => match b with | ⟨0, _⟩ => rfl) (.inl rfl) rfl r

/-- The same for a [1,1,1,128,512] vector. -/
theorem total5b_at (v : FVec Ideal S1x1x1x128x512 .f32) (r : S1.Idx) :
    multiReduction (F := Ideal) .add [1, 2, 3, 4] S1 v 0x00000000#32 reduces_S1x1x1x128x512_S1 (.inl rfl) rfl r
      = ∑ i, v i :=
  Ideal.multiReduction_add_total (φ := .f32) (s := S1x1x1x128x512) (t := S1) v 0x00000000#32 reduces_S1x1x1x128x512_S1
    (fun b => match b with | ⟨0, _⟩ => rfl) (.inl rfl) rfl r

/-- the weighted sum of one block's loss terms, broadcast to the (1,1) accumulator's shape -/
theorem pay6_eq (x0 x1 : Vec Ideal S1x8x128x512 .f32) (x2 : Vec Ideal S1x1x128x512 .f32) :
    k0_pay6 (F := Ideal) x0 x1 x2 = fun _ => Cert.Spec.sumPWK (N := 1) (H := 128) x0 x1 x2 := by
  funext i
  unfold k0_pay6
  refine carry_at
    (multiReduction (F := Ideal) .add [1, 2, 3, 4] S1
      (shapeCast S1x1x8x128x512 (prodVec x0 x1 x2) shapeCasts_S1x8x128x512_S1x1x8x128x512)
      0x00000000#32 reduces_S1x1x8x128x512_S1 (.inl rfl) rfl)
    (Cert.Spec.sumPWK (N := 1) (H := 128) x0 x1 x2) (fun r => ?_) i
  refine (total5a_at (shapeCast S1x1x8x128x512 (prodVec x0 x1 x2) shapeCasts_S1x8x128x512_S1x1x8x128x512) r).trans ?_
  refine (sum_shapeCast (prodVec x0 x1 x2) shapeCasts_S1x8x128x512_S1x1x8x128x512).trans ?_
  unfold Cert.Spec.sumPWK
  exact Finset.sum_congr rfl fun j _ => prodVec_at x0 x1 x2 j

/-- the accumulator plus the sum of one block's weights -/
theorem pay2_eq (x1 : Vec Ideal S1x8x128x512 .f32) (x2 : Vec Ideal S1x1x128x512 .f32) (xo : Vec Ideal S1x1 .f32) :
    k0_pay2 (F := Ideal) (k0_pay7 x1 x2) xo = fun i => xo i + Cert.Spec.sumWK (N := 1) (H := 128) x1 x2 := by
  funext i
  unfold k0_pay2 k0_pay7
  show (shapeCast S1x1 xo shapeCasts_S1x1_S1x1) i
      + broadcast S1x1 (extractAt ![0, 0, 0, 0, 0] (shapeCast S1x1x1x1x1
          (multiReduction (F := Ideal) .add [1, 2, 3, 4] S1
            (shapeCast S1x1x1x128x512 (k0_pay5 (F := Ideal) x1 x2) shapeCasts_S1x1x128x512_S1x1x1x128x512)
            0x00000000#32 reduces_S1x1x1x128x512_S1 (.inl rfl) rfl)
          shapeCasts_S1_S1x1x1x1x1) inpos_S1x1x1x1x1_p0_0_0_0_0) i
      = xo i + Cert.Spec.sumWK (N := 1) (H := 128) x1 x2
  rw [shapeCast_self xo shapeCasts_S1x1_S1x1]
  refine congrArg (fun z => xo i + z) ?_
  refine carry_at
    (multiReduction (F := Ideal) .add [1, 2, 3, 4] S1
      (shapeCast S1x1x1x128x512 (k0_pay5 (F := Ideal) x1 x2) shapeCasts_S1x1x128x512_S1x1x1x128x512)
      0x00000000#32 reduces_S1x1x1x128x512_S1 (.inl rfl) rfl)
    (Cert.Spec.sumWK (N := 1) (H := 128) x1 x2) (fun r => ?_) i
  refine (total5b_at (shapeCast S1x1x1x128x512 (k0_pay5 (F := Ideal) x1 x2) shapeCasts_S1x1x128x512_S1x1x1x128x512) r).trans ?_
  refine (sum_shapeCast (k0_pay5 (F := Ideal) x1 x2) shapeCasts_S1x1x128x512_S1x1x1x128x512).trans ?_
  unfold Cert.Spec.sumWK
  exact Finset.sum_congr rfl fun q _ => pay5_at x1 x2 q

end Cert.KernelIdeal.Payload
-- ==== Proof.TileLaw.lean ====
/-
  The tile law: the whole array's two sums are the sums, over the 128 tiles, of each tile's two sums.

  A tile's sums are taken with the tile's marks given as the numbers 0 / 1 of the mark bits and compared with 1/2; such
  a number exceeds 1/2 exactly when the bit is set, so a tile pixel's weight is the weight of the pixel where it sits
  in the whole array. A tile's entries, channels and pixels sit in the whole array at the matching entries, channels
  and pixels, and every entry of the array lies in exactly one tile, so the sums re-index. Nothing here needs a value
  to be finite: only re-indexing of sums in a commutative monoid.
-/
import proofs.«174528_j807453851770_1_alg».proof.Proof.Spec
import proofs.«174528_j807453851770_1_alg».proof.Proof.LibTileSum

noncomputable section

namespace Cert.TileLaw
open Idealize.ShloMosaic Cert.Spec Cert.Tile

/-- The word both programs spell for the threshold is the real number 1/2. -/
theorem half_eq : half = (((1 / 2 : ℝ)) : EReal) := by
  simp [half, Ideal.ofBits, Ideal.ieee, -EReal.coe_mul]; norm_num

/-- A mark given as the number 0 or 1 exceeds 1/2 exactly when the bit is set. -/
theorem cmp_bit (b : BitVec 1) : Ideal.cmp .ogt (((b.toNat : ℝ)) : EReal) half = b := by
  show BitVec.ofBool (decide (half < ((b.toNat : ℝ) : EReal))) = b
  rw [half_eq]
  rcases BitVec.eq_zero_or_eq_one b with h | h <;> subst h
  · have h0 : ¬ (((1 / 2 : ℝ)) : EReal) < ((((0#1 : BitVec 1).toNat : ℕ) : ℝ) : EReal) := by
      rw [EReal.coe_lt_coe_iff]; norm_num
    rw [decide_eq_false h0]; rfl
  · have h1 : (((1 / 2 : ℝ)) : EReal) < ((((1#1 : BitVec 1).toNat : ℕ) : ℝ) : EReal) := by
      rw [EReal.coe_lt_coe_iff]; norm_num
    rw [decide_eq_true h1]; rfl

/-- A bit widened to 32 bits and read as a signed integer is the bit read as a natural number. -/
theorem toInt_setWidth (x : BitVec 1) : (((x.setWidth 32).toInt : ℤ) : ℝ) = ((x.toNat : ℕ) : ℝ) := by
  have h : (x.setWidth 32).toInt = ((x.toNat : ℕ) : ℤ) := by
    rcases BitVec.eq_zero_or_eq_one x with h | h <;> subst h <;> decide
  rw [h, Int.cast_natCast]

/-- Channel `c` over pixel `q` of tile `t` sits, in the whole array, at channel `c` over the pixel where `q` sits. -/
theorem inBig_chan (t : Fin 128) (q : (M4 1 128).Idx) (c : Fin 8) :
    inBig 8 t (chan (N := 1) (H := 128) q c) = chan (N := 32) (H := 512) (inBig 1 t q) c := by
  funext a
  match a with
  | ⟨0, _⟩ => rfl
  | ⟨1, _⟩ => rfl
  | ⟨2, _⟩ => rfl
  | ⟨3, _⟩ => rfl

/-- The pixel under entry `y` of tile `t` sits, in the whole array, at the pixel under where `y` sits. -/
theorem inBig_pix (t : Fin 128) (y : (X4 1 128).Idx) :
    inBig 1 t (pix (N := 1) (H := 128) y) = pix (N := 32) (H := 512) (inBig 8 t y) := by
  funext a
  match a with
  | ⟨0, _⟩ => rfl
  | ⟨1, _⟩ => rfl
  | ⟨2, _⟩ => rfl
  | ⟨3, _⟩ => rfl

/-- The largest target of a tile's pixel is the largest target of the pixel where it sits. -/
theorem cmax_tile (T : (X4 32 512).Idx → EReal) (t : Fin 128) (q : (M4 1 128).Idx) :
    cmax (N := 1) (H := 128) (fun y => T (inBig 8 t y)) q = cmax (N := 32) (H := 512) T (inBig 1 t q) := by
  unfold cmax
  exact congrArg (fun f : Fin 8 → EReal => Finset.fold max (Ideal.ofBits .f32 0xFF800000#32) f Finset.univ)
    (funext fun c => congrArg T (inBig_chan t q c))

/-- A tile pixel's weight, its mark given as the number of the mark bit, is the weight of the pixel where it sits. -/
theorem wgtK_tile (T : (X4 32 512).Idx → EReal) (M : (M4 32 512).Idx → BitVec 1) (t : Fin 128) (q : (M4 1 128).Idx) :
    wgtK (N := 1) (H := 128) (fun y => T (inBig 8 t y)) (fun q => (((M (inBig 1 t q)).toNat : ℝ) : EReal)) q
      = wgt (N := 32) (H := 512) T M (inBig 1 t q) := by
  unfold wgtK wgt
  rw [cmp_bit, cmax_tile, toInt_setWidth]

/-- The weighted sums of the loss terms of the 128 tiles, each tile's marks given as the numbers 0 / 1 of the mark bits, add up to the whole array's weighted sum. -/
theorem sumPW_tiles (X T : (X4 32 512).Idx → EReal) (M : (M4 32 512).Idx → BitVec 1) :
    ∑ t : Fin 128, sumPWK (N := 1) (H := 128) (fun y => X (inBig 8 t y)) (fun y => T (inBig 8 t y))
        (fun q => (((M (inBig 1 t q)).toNat : ℝ) : EReal)) = sumPW X T M := by
  unfold sumPWK sumPW
  refine Eq.trans ?_ (sum_tiles 8 (fun j => term (X j) (T j) * wgt T M (pix j)))
  refine Finset.sum_congr rfl fun t _ => Finset.sum_congr rfl fun y _ => ?_
  rw [wgtK_tile, inBig_pix]

/-- The same for the sums of the weights. -/
theorem sumW_tiles (T : (X4 32 512).Idx → EReal) (M : (M4 32 512).Idx → BitVec 1) :
    ∑ t : Fin 128, sumWK (N := 1) (H := 128) (fun y => T (inBig 8 t y))
        (fun q => (((M (inBig 1 t q)).toNat : ℝ) : EReal)) = sumW T M := by
  unfold sumWK sumW
  refine Eq.trans ?_ (sum_tiles 1 (fun q => wgt T M q))
  exact Finset.sum_congr rfl fun t _ => Finset.sum_congr rfl fun q _ => wgtK_tile T M t q

end Cert.TileLaw

end
-- ==== Proof.Total.lean ====
/-
  The kernel's result at the exact reals: the loss of the whole arrays.

  At the exact (extended-real) reading every grid point adds to the first accumulator the weighted sum of its tile's loss
  terms and to the second the sum of its tile's weights, starting from the zero word. After the last of the 128 points
  the accumulators therefore hold zero plus the sum over all tiles of the tile sums, which is the sum over the whole
  arrays (each entry lies in exactly one tile; addition of extended reals is commutative and associative, so no
  finiteness is used). The host tail then divides the first total by the second times 8: the loss.
-/
import proofs.«174528_j807453851770_1_alg».proof.Proof.Accum
import proofs.«174528_j807453851770_1_alg».proof.Proof.Blocks
import proofs.«174528_j807453851770_1_alg».proof.Proof.Payload
import proofs.«174528_j807453851770_1_alg».proof.Proof.TileLaw

noncomputable section

open Idealize.ShloMosaic Idealize.ShloMosaic.TcCoe Idealize.SL.Sem

namespace Cert.KernelIdeal.Total

open Cert.KernelIdeal Cert.KernelIdeal.Gen Cert.KernelIdeal.Accum Cert.KernelIdeal.Blocks Cert.KernelIdeal.Payload
open Cert.Spec Cert.Tile Cert.TileLaw

variable (m : (ℓ : Loc nD τ sig) → Buf (Elt Ideal) ℓ)

/-- The three argument arrays as launched: scores, targets, mark bits. -/
abbrev argX (c : Dev nD) : (X4 32 512).Idx → EReal := m ((c : Thread nD τ).loc main_arg0)
abbrev argT (c : Dev nD) : (X4 32 512).Idx → EReal := m ((c : Thread nD τ).loc main_arg1)
abbrev argM (c : Dev nD) : (M4 32 512).Idx → BitVec 1 := m ((c : Thread nD τ).loc main_arg2)

/-- The word the accumulators start from (it denotes 0). -/
abbrev z : EReal := Ideal.ofBits .f32 0x00000000#32

/-- Step `k`'s contribution to the first accumulator: its tile's weighted sum of loss terms (0 past the grid). -/
def pw (c : Dev nD) (k : ℕ) : EReal :=
  if h : k < cfg0.N then sumPWK (N := 1) (H := 128) (iblk m c 0 ⟨k, h⟩) (iblk m c 1 ⟨k, h⟩) (iblk m c 2 ⟨k, h⟩) else 0

/-- Step `k`'s contribution to the second accumulator: the sum of its tile's weights (0 past the grid). -/
def ww (c : Dev nD) (k : ℕ) : EReal :=
  if h : k < cfg0.N then sumWK (N := 1) (H := 128) (iblk m c 1 ⟨k, h⟩) (iblk m c 2 ⟨k, h⟩) else 0

/-- One step of the first accumulator: what it held, plus the tile's weighted sum. -/
theorem step3 (c : Dev nD) (t : Fin cfg0.N) (xo : Vec Ideal S1x1 .f32) :
    k0_pay1 (F := Ideal) (contribPW m c t) xo
      = fun i => xo i + sumPWK (N := 1) (H := 128) (iblk m c 0 t) (iblk m c 1 t) (iblk m c 2 t) :=
  (pay1_eq (contribPW m c t) xo).trans
    (funext fun i => congrArg (fun v => xo i + v) (congrFun (pay6_eq (iblk m c 0 t) (iblk m c 1 t) (iblk m c 2 t)) i))

/-- One step of the second accumulator: what it held, plus the sum of the tile's weights. -/
theorem step4 (c : Dev nD) (t : Fin cfg0.N) (xo : Vec Ideal S1x1 .f32) :
    k0_pay2 (F := Ideal) (contribW m c t) xo = fun i => xo i + sumWK (N := 1) (H := 128) (iblk m c 1 t) (iblk m c 2 t) :=
  pay2_eq (iblk m c 1 t) (iblk m c 2 t) xo

/-- The accumulators after point `n`: the zero word plus the first `n + 1` contributions, at every index. -/
theorem chain_eq (c : Dev nD) : ∀ (n : ℕ) (h : n < cfg0.N),
    chain m c n h = (fun _ => acc z (pw m c) n, fun _ => acc z (ww m c) n)
  | 0, h => by
    refine Prod.ext ?_ ?_
    · refine (step3 m c ⟨0, h⟩ (k0_pay3 (F := Ideal))).trans (funext fun i => ?_)
      show z + _ = z + pw m c 0
      rw [pw, dif_pos h]
    · refine (step4 m c ⟨0, h⟩ (k0_pay4 (F := Ideal))).trans (funext fun i => ?_)
      show z + _ = z + ww m c 0
      rw [ww, dif_pos h]
  | n + 1, h => by
    have ih := chain_eq c n (Nat.lt_of_succ_lt h)
    refine Prod.ext ?_ ?_
    · refine (step3 m c ⟨n + 1, h⟩ (chain m c n (Nat.lt_of_succ_lt h)).1).trans (funext fun i => ?_)
      show (chain m c n (Nat.lt_of_succ_lt h)).1 i + _ = acc z (pw m c) n + pw m c (n + 1)
      rw [ih, pw, dif_pos h]
    · refine (step4 m c ⟨n + 1, h⟩ (chain m c n (Nat.lt_of_succ_lt h)).2).trans (funext fun i => ?_)
      show (chain m c n (Nat.lt_of_succ_lt h)).2 i + _ = acc z (ww m c) n + ww m c (n + 1)
      rw [ih, ww, dif_pos h]

/-- A tile's three blocks, entry by entry, as entries of the launched arguments. -/
theorem blk0 (c : Dev nD) (t : Fin cfg0.N) :
    (iblk m c 0 t : (X4 1 128).Idx → EReal) = fun y => argX m c (inBig 8 (tile t) y) :=
  funext fun y => (iblk0_apply m c t y).trans (congrFun (V_main_arg0 m c) _)
theorem blk1 (c : Dev nD) (t : Fin cfg0.N) :
    (iblk m c 1 t : (X4 1 128).Idx → EReal) = fun y => argT m c (inBig 8 (tile t) y) :=
  funext fun y => (iblk1_apply m c t y).trans (congrFun (V_main_arg1 m c) _)
theorem blk2 (c : Dev nD) (t : Fin cfg0.N) :
    (iblk m c 2 t : (M4 1 128).Idx → EReal) = fun q => (((argM m c (inBig 1 (tile t) q)).toNat : ℝ) : EReal) :=
  funext fun q => (iblk2_apply m c t q).trans (congrFun (V_main_v0 m c) _)

/-- The 128 contributions to the first accumulator add up to the whole arrays' weighted sum of loss terms, -/
theorem sum_pw (c : Dev nD) : ∑ t : Fin 128, pw m c t.val = sumPW (argX m c) (argT m c) (argM m c) := by
  rw [← sumPW_tiles (argX m c) (argT m c) (argM m c)]
  refine Finset.sum_congr rfl fun t _ => ?_
  have ht : t.val < cfg0.N := lt_of_lt_of_eq t.isLt N_0.symm
  rw [pw, dif_pos ht, blk0 m c ⟨t.val, ht⟩, blk1 m c ⟨t.val, ht⟩, blk2 m c ⟨t.val, ht⟩]

/-- and those to the second to the whole arrays' sum of weights. -/
theorem sum_ww (c : Dev nD) : ∑ t : Fin 128, ww m c t.val = sumW (argT m c) (argM m c) := by
  rw [← sumW_tiles (argT m c) (argM m c)]
  refine Finset.sum_congr rfl fun t _ => ?_
  have ht : t.val < cfg0.N := lt_of_lt_of_eq t.isLt N_0.symm
  rw [ww, dif_pos ht, blk1 m c ⟨t.val, ht⟩, blk2 m c ⟨t.val, ht⟩]

/-- The first result array ends at the whole weighted sum, at its one index; -/
theorem result3_eq (c : Dev nD) : result3 m c = fun _ => sumPW (argX m c) (argT m c) (argM m c) := by
  show (chain m c 127 _).1 = _
  rw [chain_eq m c 127]
  funext i
  show acc z (pw m c) 127 = _
  rw [acc_last, sum_pw]
  show Ideal.ofBits .f32 0x00000000#32 + _ = _
  rw [Ideal.ofBits_zero_f32, zero_add]

/-- the second at the whole sum of weights. -/
theorem result4_eq (c : Dev nD) : result4 m c = fun _ => sumW (argT m c) (argM m c) := by
  show (chain m c 127 _).2 = _
  rw [chain_eq m c 127]
  funext i
  show acc z (ww m c) 127 = _
  rw [acc_last, sum_ww]
  show Ideal.ofBits .f32 0x00000000#32 + _ = _
  rw [Ideal.ofBits_zero_f32, zero_add]

/-- The host tail of two constant (1, 1) arrays: the first number over the second times 8. -/
theorem tail_const (a b : EReal) :
    tail (F := Ideal) (fun _ => a) (fun _ => b) = fun _ => Ideal.div a (b * Ideal.ofBits .f32 0x41000000#32) := rfl

/-- So the program returns the loss of its arguments. -/
theorem result_eq (c : Dev nD) :
    tail (F := Ideal) (result3 m c) (result4 m c) = fun _ => loss (argX m c) (argT m c) (argM m c) :=
  (congrArg₂ (tail (F := Ideal)) (result3_eq m c) (result4_eq m c)).trans (tail_const _ _)

end Cert.KernelIdeal.Total

end
-- ==== Proof.lean ====
/-
  The claim: the kernel and its reference compute the same loss.

  Both programs take scores and targets of shape [32, 8, 512, 512] and mark bits of shape [32, 1, 512, 512]. A pixel
  counts when it is marked or the largest of its eight targets exceeds 1/2; every entry carries the logistic loss term
  `max(x, 0) − x·t + log(1 + exp(−|x|))`; the result is the sum of the terms of the entries over counting pixels, divided
  by eight times the number of counting pixels. The reference computes the two sums over the whole arrays at once. The
  kernel visits 128 tiles (128 rows of one sample each) in order, adds each tile's two sums into two accumulators that
  it zeroes at the first tile, and divides at the end. Read at the exact reals the two agree: every entry lies in
  exactly one tile and addition of extended reals is commutative and associative, so the tile sums add up to the whole
  sums; no input needs to be finite for that. The kernel spells `−|x|` as `0 − |x|`, compares the marks, turned into
  the numbers 0 and 1, with 1/2 where the reference uses the bits, and reads its one-bit answer as a signed 32-bit
  integer where the reference reads it unsigned: the same numbers.

  The three frame claims are the generated frame runs (the reference's is its generated run with the result dropped);
  the idealization rewrote nothing, so `preserves` is `True`.
-/
import proofs.«174528_j807453851770_1_alg».proof.Defs
import proofs.«174528_j807453851770_1_alg».proof.Proof.Gen.Kernel
import proofs.«174528_j807453851770_1_alg».proof.Proof.Gen.Kernel.Skeleton
import proofs.«174528_j807453851770_1_alg».proof.Proof.Gen.Kernel.Launch
import proofs.«174528_j807453851770_1_alg».proof.Proof.Gen.Kernel.Points
import proofs.«174528_j807453851770_1_alg».proof.Proof.Gen.Kernel.Frame
import proofs.«174528_j807453851770_1_alg».proof.Proof.Gen.KernelIdeal
import proofs.«174528_j807453851770_1_alg».proof.Proof.Gen.KernelIdeal.Skeleton
import proofs.«174528_j807453851770_1_alg».proof.Proof.Gen.KernelIdeal.Launch
import proofs.«174528_j807453851770_1_alg».proof.Proof.Gen.KernelIdeal.Points
import proofs.«174528_j807453851770_1_alg».proof.Proof.Gen.KernelIdeal.Frame
import proofs.«174528_j807453851770_1_alg».proof.Proof.Gen.ReferenceIdeal
import proofs.«174528_j807453851770_1_alg».proof.Proof.Gen.Pre_finite_inputs
import proofs.«174528_j807453851770_1_alg».proof.Proof.RefSide
import proofs.«174528_j807453851770_1_alg».proof.Proof.Total
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the exact reals the kernel's result is the loss of its arguments (the accumulators over the 128 tiles, then the
    host tail) and the reference's is the loss of arguments that agree with them. -/
theorem algebraic : Cert.algebraic_KernelIdeal_ReferenceIdeal := by
  intro m ρ m' ρ' _ hagree
  refine ⟨fun c => fun _ => Cert.Spec.loss (Cert.KernelIdeal.Total.argX m c) (Cert.KernelIdeal.Total.argT m c) (Cert.KernelIdeal.Total.argM m c), ?_, ?_⟩
  · exact (θ_run Cert.KernelIdeal.defs _ _).mono
      (fun _ h c => ⟨(h c).1.trans (Cert.KernelIdeal.Total.result_eq m c), (h c).2⟩)
      (Cert.KernelIdeal.Accum.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, Cert.RefSide.ref_eq, (hagree c).1, (hagree c).2.1, (hagree c).2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
